-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x128 : Shape := ⟨2, ![512, 128]⟩
abbrev S256x512 : Shape := ⟨2, ![256, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S_ : Shape := ⟨0, ![]⟩

class Facts : Prop where
  bcast_S_S512x128 : S_.BroadcastsInDim S512x128 (![] : Fin 0 → Fin S512x128.rank)
  reducesTo_S512x128_S_d0_1 : S512x128.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S512x1 .f32) (main_arg7 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x1 .f32 := Host.absf main_arg6
  let main_cst_10 : FVec F S_ .f32 := constant S_ .f32 0x7F800000#32
  let main_v30 : FVec F S512x1 .f32 := broadcastInDim S512x1 ![] bcast_S_S512x1 main_cst_10
  let main_v31 : IVec S512x1 1 := cmpf .olt main_v29 main_v30
  let main_c_11 : IVec S_ 1 := constantI S_ 1 1#1
  let main_v32 : IVec S_ 1 := (fun x v => Host.reduce IntOp.andi x v reducesTo_S512x1_S_d0_1 h_S_) main_v31 main_c_11
  let main_v33 : IVec S_ 1 := andi main_v28 main_v32
  fn_part2 (F := F) main_arg7 main_v33

def fn {F : FTy → Type} [FloatOps F] (main_arg0 : FVec F S512x128 .f32) (main_arg1 : FVec F S512x128 .f32) (main_arg2 : FVec F S256x512 .f32) (main_arg3 : FVec F S512 .f32) (main_arg4 : FVec F S512x512 .f32) (main_arg5 : FVec F S512 .f32) (main_arg6 : FVec F S512x1 .f32) (main_arg7 : FVec F S1 .f32) : IVec S_ 1 :=
  let main_v0 : FVec F S512x128 .f32 := Host.absf main_arg0
  let main_cst : FVec F S_ .f32 := constant S_ .f32 0x7F800000#32
  let main_v1 : FVec F S512x128 .f32 := broadcastInDim S512x128 ![] bcast_S_S512x128 main_cst
  let main_v2 : IVec S512x128 1 := cmpf .olt main_v0 main_v1
  let main_c : IVec S_ 1 := constantI S_ 1 1#1
  let main_v3 : IVec S_ 1 := (fun x v => Host.reduce IntOp.andi x v reducesTo_S512x128_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S512x128 : Shape := ⟨2, ![512, 128]⟩
abbrev S256x512 : Shape := ⟨2, ![256, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S128x512 : Shape := ⟨2, ![128, 512]⟩
abbrev S1x512 : Shape := ⟨2, ![1, 512]⟩
abbrev S1x1 : Shape := ⟨2, ![1, 1]⟩
abbrev S64x512 : Shape := ⟨2, ![64, 512]⟩
abbrev S64x128 : Shape := ⟨2, ![64, 128]⟩
abbrev S64x1x512 : Shape := ⟨3, ![64, 1, 512]⟩
abbrev S1x128x512 : Shape := ⟨3, ![1, 128, 512]⟩
abbrev S64x128x512 : Shape := ⟨3, ![64, 128, 512]⟩
abbrev S8192x512 : Shape := ⟨2, ![8192, 512]⟩
abbrev S8192 : Shape := ⟨1, ![8192]⟩
abbrev S8192x1 : Shape := ⟨2, ![8192, 1]⟩

abbrev nBuf : Space → Nat
  | .hbm => 22
  | .vmem => 10
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S256x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S128x512, .f32⟩
  | .hbm, ⟨9, _⟩ => ⟨S128x512, .f32⟩
  | .hbm, ⟨10, _⟩ => ⟨S512x512, .f32⟩
  | .hbm, ⟨11, _⟩ => ⟨S1x512, .f32⟩
  | .hbm, ⟨12, _⟩ => ⟨S512x512, .f32⟩
  | .hbm, ⟨13, _⟩ => ⟨S512x512, .f32⟩
  | .hbm, ⟨14, _⟩ => ⟨S512x512, .f32⟩
  | .hbm, ⟨15, _⟩ => ⟨S512x512, .bf16⟩
  | .hbm, ⟨16, _⟩ => ⟨S512x512, .bf16⟩
  | .hbm, ⟨17, _⟩ => ⟨S512x512, .bf16⟩
  | .hbm, ⟨18, _⟩ => ⟨S1x512, .f32⟩
  | .hbm, ⟨19, _⟩ => ⟨S1x512, .f32⟩
  | .hbm, ⟨20, _⟩ => ⟨S1x1, .f32⟩
  | .hbm, ⟨21, _⟩ => ⟨S512x512, .f32⟩
  | .local _ .vmem, ⟨0, _⟩ => ⟨S64x512, .bf16⟩
  | .local _ .vmem, ⟨1, _⟩ => ⟨S64x512, .bf16⟩
  | .local _ .vmem, ⟨2, _⟩ => ⟨S128x512, .bf16⟩
  | .local _ .vmem, ⟨3, _⟩ => ⟨S128x512, .bf16⟩
  | .local _ .vmem, ⟨4, _⟩ => ⟨S512x512, .bf16⟩
  | .local _ .vmem, ⟨5, _⟩ => ⟨S1x512, .f32⟩
  | .local _ .vmem, ⟨6, _⟩ => ⟨S1x512, .f32⟩
  | .local _ .vmem, ⟨7, _⟩ => ⟨S1x1, .f32⟩
  | .local _ .vmem, ⟨8, _⟩ => ⟨S64x128, .f32⟩
  | .local _ .vmem, ⟨9, _⟩ => ⟨S64x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  slices_S256x512_S128x512_0_0 : S256x512.Slices ![0, 0] S128x512
  slices_S256x512_S128x512_128_0 : S256x512.Slices ![128, 0] S128x512
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  bitsLt_bf16_f32 : FTy.bits .bf16 < FTy.bits .f32
  shapeCasts_S512_S1x512 : S512.ShapeCasts S1x512
  shapeCasts_S512x1_S1x512 : S512x1.ShapeCasts S1x512
  shapeCasts_S1_S1x1 : S1.ShapeCasts S1x1
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S128x512_S128x512_0_0 : ∀ a, (![0, 0] : Fin 2 → Nat) a + S128x512.size a ≤ S128x512.size a
  h_S128x512 : 0 < S128x512.numel
  shapeCasts_S128x512_S128x512 : S128x512.ShapeCasts S128x512
  shapeCasts_S64x512_S64x1x512 : S64x512.ShapeCasts S64x1x512
  shapeCasts_S128x512_S1x128x512 : S128x512.ShapeCasts S1x128x512
  broadcasts_S64x1x512_S64x128x512 : S64x1x512.Broadcasts S64x128x512
  broadcasts_S1x128x512_S64x128x512 : S1x128x512.Broadcasts S64x128x512
  shapeCasts_S64x128x512_S8192x512 : S64x128x512.ShapeCasts S8192x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S8192x512 : S1x512.Broadcasts S8192x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  reduces_S8192x512_S8192 : S8192x512.Reduces [1] S8192
  shapeCasts_S8192_S8192x1 : S8192.ShapeCasts S8192x1
  broadcasts_S1x1_S8192x1 : S1x1.Broadcasts S8192x1
  shapeCasts_S8192x1_S64x128 : S8192x1.ShapeCasts S64x128
  inb_S64x128_S64x128_0_0 : ∀ a, (![0, 0] : Fin 2 → Nat) a + S64x128.size a ≤ S64x128.size a
  h_S64x128 : 0 < S64x128.numel
  dot_S512x128_S128x512_S512x512_1_0_0_1_n_n_wf : DotDims.WF S512x128 S128x512 S512x512 [1] [0] [0] [1] [] []
  dot_S8192x512_S512x512_S8192x512_1_0_0_1_n_n_wf : DotDims.WF S8192x512 S512x512 S8192x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x512.size a ≤ S512x512.size a
  hwx0_0 : ∀ i : grid0.Coords, EltTy.bits .bf16 = 32 ∨ (Rect.block (s := S512x512) S64x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S512x512.size a
  hwx0_1 : ∀ i : grid0.Coords, EltTy.bits .bf16 = 32 ∨ (Rect.block (s := S512x512) S128x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x128.size a ≤ S512x512.size a
  hwx0_6 : ∀ i : grid0.Coords, EltTy.bits .f32 = 32 ∨ (Rect.block (s := S512x512) S64x128.size (cc0_transform_6 i) (hinb0_6 i)).WholeWords (EltTy.packing .f32)

variable [Facts₀]

def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf

abbrev win0_0 : Pipeline.Window sig grid0 :=
  Pipeline.Window.ofSpec (Memref.whole main_v7) S64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S64x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S512x128 : Shape := ⟨2, ![512, 128]⟩
abbrev S256x512 : Shape := ⟨2, ![256, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S1x512x128 : Shape := ⟨3, ![1, 512, 128]⟩
abbrev S512x512x128 : Shape := ⟨3, ![512, 512, 128]⟩
abbrev S512x1x128 : Shape := ⟨3, ![512, 1, 128]⟩
abbrev S512x512x256 : Shape := ⟨3, ![512, 512, 256]⟩
abbrev S262144x256 : Shape := ⟨2, ![262144, 256]⟩
abbrev S262144x512 : Shape := ⟨2, ![262144, 512]⟩
abbrev S1x512 : Shape := ⟨2, ![1, 512]⟩
abbrev S_ : Shape := ⟨0, ![]⟩
abbrev S262144x1 : Shape := ⟨2, ![262144, 1]⟩
abbrev S1x1 : Shape := ⟨2, ![1, 1]⟩

abbrev nBuf : Space → Nat
  | .hbm => 34
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S256x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S1x512x128, .f32⟩
  | .hbm, ⟨9, _⟩ => ⟨S512x512x128, .f32⟩
  | .hbm, ⟨10, _⟩ => ⟨S512x1x128, .f32⟩
  | .hbm, ⟨11, _⟩ => ⟨S512x512x128, .f32⟩
  | .hbm, ⟨12, _⟩ => ⟨S512x512x256, .f32⟩
  | .hbm, ⟨13, _⟩ => ⟨S262144x256, .f32⟩
  | .hbm, ⟨14, _⟩ => ⟨S262144x512, .f32⟩
  | .hbm, ⟨15, _⟩ => ⟨S1x512, .f32⟩
  | .hbm, ⟨16, _⟩ => ⟨S262144x512, .f32⟩
  | .hbm, ⟨17, _⟩ => ⟨S262144x512, .f32⟩
  | .hbm, ⟨18, _⟩ => ⟨S_, .f32⟩
  | .hbm, ⟨19, _⟩ => ⟨S262144x512, .f32⟩
  | .hbm, ⟨20, _⟩ => ⟨S262144x512, .f32⟩
  | .hbm, ⟨21, _⟩ => ⟨S262144x512, .f32⟩
  | .hbm, ⟨22, _⟩ => ⟨S1x512, .f32⟩
  | .hbm, ⟨23, _⟩ => ⟨S262144x512, .f32⟩
  | .hbm, ⟨24, _⟩ => ⟨S262144x512, .f32⟩
  | .hbm, ⟨25, _⟩ => ⟨S_, .f32⟩
  | .hbm, ⟨26, _⟩ => ⟨S262144x512, .f32⟩
  | .hbm, ⟨27, _⟩ => ⟨S262144x512, .f32⟩
  | .hbm, ⟨28, _⟩ => ⟨S262144x1, .f32⟩
  | .hbm, ⟨29, _⟩ => ⟨S1x1, .f32⟩
  | .hbm, ⟨30, _⟩ => ⟨S262144x1, .f32⟩
  | .hbm, ⟨31, _⟩ => ⟨S262144x1, .f32⟩
  | .hbm, ⟨32, _⟩ => ⟨S512x512, .f32⟩
  | .hbm, ⟨33, _⟩ => ⟨S512x512, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call0_cst : Ref sig .tc := ⟨.hbm, 18, rfl⟩
abbrev main_call0_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call1_cst : Ref sig .tc := ⟨.hbm, 25, rfl⟩
abbrev main_call1_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  bcast_S512x128_S1x512x128_1_2 : S512x128.BroadcastsInDim S1x512x128 (![1, 2] : Fin 2 → Fin S1x512x128.rank)
  bcast_S1x512x128_S512x512x128_0_1_2 : S1x512x128.BroadcastsInDim S512x512x128 (![0, 1, 2] : Fin 3 → Fin S512x512x128.rank)
  bcast_S512x128_S512x1x128_0_2 : S512x128.BroadcastsInDim S512x1x128 (![0, 2] : Fin 2 → Fin S512x1x128.rank)
  bcast_S512x1x128_S512x512x128_0_1_2 : S512x1x128.BroadcastsInDim S512x512x128 (![0, 1, 2] : Fin 3 → Fin S512x512x128.rank)
  concatenates_S512x512x128_S512x512x128_S512x512x256_d2 : Shape.Concatenates [S512x512x128, S512x512x128] S512x512x256 2
  shapeCasts_S512x512x256_S262144x256 : S512x512x256.ShapeCasts S262144x256
  bcast_S512_S1x512_1 : S512.BroadcastsInDim S1x512 (![1] : Fin 1 → Fin S1x512.rank)
  bcast_S1x512_S262144x512_0_1 : S1x512.BroadcastsInDim S262144x512 (![0, 1] : Fin 2 → Fin S262144x512.rank)
  bcast_S_S262144x512 : S_.BroadcastsInDim S262144x512 (![] : Fin 0 → Fin S262144x512.rank)
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  shapeCasts_S262144x1_S512x512 : S262144x1.ShapeCasts S512x512
  transposes_S512x512_S512x512_1_0 : S512x512.Transposes [1, 0] S512x512
  dot_S262144x256_S256x512_S262144x512_1_0_0_1_n_n_wf : DotDims.WF S262144x256 S256x512 S262144x512 [1] [0] [0] [1] [] []
  dot_S262144x512_S512x512_S262144x512_1_0_0_1_n_n_wf : DotDims.WF S262144x512 S512x512 S262144x512 [1] [0] [0] [1] [] []
  dot_S262144x512_S512x1_S262144x1_1_0_0_1_n_n_wf : DotDims.WF S262144x512 S512x1 S262144x1 [1] [0] [0] [1] [] []

variable [Facts₀]

def dot_S262144x256_S256x512_S262144x512_1_0_0_1_n_n : DotDims S262144x256 S256x512 S262144x512 where
  lhsContracting := [1]
  rhsContracting := [0]
  lhsNonContracting := [0]
  rhsNonContracting := [1]
  lhsBatch := []
  rhsBatch := []
  wf := dot_S262144x256_S256x512_S262144x512_1_0_0_1_n_n_wf
def dot_S262144x512_S512x512_S262144x512_1_0_0_1_n_n : DotDims S262144x512 S512x512 S262144x512 where
  lhsContracting := [1]
  rhsContracting := [0]
  lhsNonContracting := [0]
  rhsNonContracting := [1]
  lhsBatch := []
  rhsBatch := []
  wf := dot_S262144x512_S512x512_S262144x512_1_0_0_1_n_n_wf
def dot_S262144x512_S512x1_S262144x1_1_0_0_1_n_n : DotDims S262144x512 S512x1 S262144x1 where
  lhsContracting := [1]
  rhsContracting := [0]
  lhsNonContracting := [0]
  rhsNonContracting := [1]
  lhsBatch := []
  rhsBatch := []
  wf := dot_S262144x512_S512x1_S262144x1_1_0_0_1_n_n_wf

class Facts : Prop extends Facts₀ where

variable [Facts]
-- ==== Proof.Spec.lean ====
/-
  The function both programs compute, stated once over the extended reals.

  For rows `x a` and `y b` of the two input matrices the score is a three-layer perceptron of the
  concatenated row `(x a, y b)`:
    hidden₁ k = max (Σ_l (x a, y b)_l · W1 l k + b1 k) 0,
    hidden₂ n = max (Σ_k hidden₁ k · W2 k n + b2 n) 0,
    score     = Σ_n hidden₂ n · W3 n 0 + b3 0.
  The first contraction runs over the 256 coordinates of the concatenated row; it is stated here already
  split into the half that meets `x a` (rows 0‥127 of W1, with the bias added to it) and the half that meets
  `y b` (rows 128‥255 of W1). `sum_halves` and `split_bias` are the two laws of a commutative monoid that
  turn the unsplit contraction plus bias into this form; neither needs finiteness.
-/
import Idealize.ShloMosaic.PureOps.Ideal
import Idealize.ShloMosaic.PureOps.Ideal.Laws
import Idealize.ShloMosaic.Lib.ValueIdx

noncomputable section

namespace Cert.PairMlp

open Idealize.ShloMosaic Idealize.ShloMosaic.ValueIdx

/-- A matrix of extended reals with literal extents. -/
abbrev Mat (a b : Nat) : Type := FVec Ideal (⟨2, ![a, b]⟩ : Shape) .f32
/-- A vector of extended reals with a literal extent. -/
abbrev Row (a : Nat) : Type := FVec Ideal (⟨1, ![a]⟩ : Shape) .f32

/-- Row `j` of the upper half of the first weight matrix (the rows that meet `x`). -/
def lo (j : Fin 128) : Fin 256 := ⟨j.val, by have := j.isLt; omega⟩
/-- Row `128 + j` of the first weight matrix (the rows that meet `y`). -/
def hi (j : Fin 128) : Fin 256 := ⟨128 + j.val, by have := j.isLt; omega⟩

/-- The `x` half of the first layer's pre-activation, bias included. -/
def projX (x : Mat 512 128) (W1 : Mat 256 512) (b1 : Row 512) (a k : Fin 512) : EReal :=
  (∑ j : Fin 128, x (ix2 a j) * W1 (ix2 (lo j) k)) + b1 (ix1 k)

/-- The `y` half of the first layer's pre-activation. -/
def projY (y : Mat 512 128) (W1 : Mat 256 512) (b k : Fin 512) : EReal :=
  ∑ j : Fin 128, y (ix2 b j) * W1 (ix2 (hi j) k)

/-- The second layer from the two halves of the first: `max (Σ_k max (px k + py k) 0 · W2 k n + b2 n) 0`. The
    weights are taken by coordinates, so that a row vector stored as `[512]` or as `[1, 512]` serves alike. -/
def hidden2 (px py : Fin 512 → EReal) (W2 : Fin 512 → Fin 512 → EReal) (b2 : Fin 512 → EReal) (n : Fin 512) : EReal :=
  max ((∑ k : Fin 512, max (px k + py k) 0 * W2 k n) + b2 n) 0

/-- The score from the two halves of the first layer. -/
def scoreOf (px py : Fin 512 → EReal) (W2 : Fin 512 → Fin 512 → EReal) (b2 : Fin 512 → EReal) (W3 : Fin 512 → EReal)
    (b3 : EReal) : EReal :=
  (∑ n : Fin 512, hidden2 px py W2 b2 n * W3 n) + b3

/-- THE RESULT: entry `(a, b)` is the score of the pair `(x a, y b)`. -/
def scores (x y : Mat 512 128) (W1 : Mat 256 512) (b1 : Row 512) (W2 : Mat 512 512) (b2 : Row 512)
    (W3 : Mat 512 1) (b3 : Row 1) : Mat 512 512 := fun i =>
  scoreOf (projX x W1 b1 (i 0)) (projY y W1 (i 1)) (fun k n => W2 (ix2 k n)) (fun n => b2 (ix1 n))
    (fun n => W3 (ix2 n (0 : Fin 1))) (b3 (ix1 (0 : Fin 1)))

/-- A sum over 256 indices is the sum over its first 128 plus the sum over its last 128. -/
theorem sum_halves {M : Type*} [AddCommMonoid M] (f : Fin 256 → M) :
    ∑ l : Fin 256, f l = (∑ j : Fin 128, f (lo j)) + ∑ j : Fin 128, f (hi j) := by
  have h := Fin.sum_univ_add (a := 128) (b := 128) (f : Fin (128 + 128) → M)
  exact h

/-- `(A + B) + c = (A + c) + B` in a commutative monoid: the bias may be added to the first half. -/
theorem split_bias {M : Type*} [AddCommMonoid M] (A B c : M) : (A + B) + c = (A + c) + B :=
  add_right_comm A B c

end Cert.PairMlp

end
-- ==== Proof.Payload.lean ====
/-
  The kernel body at one entry of its output block.

  The body receives a [64, 512] block of the `x` half of the first layer (bias included), a [128, 512] block of the
  `y` half, the second weight matrix, and the second bias, the third weights and the third bias as rows. It forms the
  [64, 128, 512] tile `max (px a k + py b k) 0`, views it as 8192 rows (row `a · 128 + b`), multiplies by the second
  weight matrix, adds the bias, clamps at zero, multiplies by the third weights, sums each row, adds the third bias, and
  views the 8192 sums as a [64, 128] block. So entry `(p, q)` of the block is the score built from row `p` of the first
  block and row `q` of the second.
-/
import proofs.«130230_j31207232372863_2_alg».proof.Proof.Gen.KernelIdeal.Skeleton
import proofs.«130230_j31207232372863_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.PairMlp.Body

open Cert.KernelIdeal Cert.KernelIdeal.Gen Idealize.ShloMosaic Idealize.ShloMosaic.ValueIdx Cert.PairMlp

/-- The row of the flattened tile that holds the pair `(p, q)` of the block. -/
def tileRow (p : Fin 64) (q : Fin 128) : Fin 8192 := ⟨p.val * 128 + q.val, by have := p.isLt; have := q.isLt; omega⟩

/-- The bf16 zero pattern is zero. -/
theorem zero_bf16 : (Scalar.ofBits (F := Ideal) .bf16 0x0000#16) = (0 : EReal) := by
  show Ideal.ofBits .bf16 0x0000#16 = 0
  simp [Ideal.ofBits, Ideal.ieee]

/-- The f32 zero pattern is zero. -/
theorem zero_f32 : (Scalar.ofBits (F := Ideal) .f32 0x00000000#32) = (0 : EReal) := Ideal.ofBits_zero_f32

/-- THE PAIR TILE: row `p · 128 + q` of the flattened tile is `max (u p + v q) z` coordinate by coordinate. -/
theorem pairTile_apply (u : FVec Ideal S64x512 .bf16) (v : FVec Ideal S128x512 .bf16)
    (h1 : S64x512.ShapeCasts S64x1x512) (h2 : S128x512.ShapeCasts S1x128x512)
    (hb1 : S64x1x512.Broadcasts S64x128x512) (hb2 : S1x128x512.Broadcasts S64x128x512)
    (h3 : S64x128x512.ShapeCasts S8192x512) (z : Ideal .bf16) (p : Fin 64) (q : Fin 128) (k : Fin 512) :
    shapeCast S8192x512 (maximumf (addf (broadcastTo S64x128x512 (shapeCast S64x1x512 u h1) hb1)
        (broadcastTo S64x128x512 (shapeCast S1x128x512 v h2) hb2)) (broadcast S64x128x512 z)) h3 (ix2 (tileRow p q) k)
      = max (u (ix2 p k) + v (ix2 q k)) z := by
  have hp := p.isLt; have hq := q.isLt; have hk := k.isLt
  refine (shapeCast_apply _ h3 (ix2 (tileRow p q) k) (ix3 p q k) (by
    rw [Shape.rowMajor_val_three, Shape.rowMajor_val_two]
    show (p.val * 128 + q.val) * 512 + k.val = (p.val * 128 + q.val) * 512 + k.val
    rfl)).trans ?_
  rw [maximumf_apply, addf_apply, broadcast_apply]
  rw [broadcastTo_apply _ hb1 (ix3 p q k) (ix3 p (0 : Fin 1) k) (fun ax => by
      match ax with
      | ⟨0, _⟩ => show p.val = if (64 : Nat) = 1 then 0 else p.val; rw [if_neg (by decide)]
      | ⟨1, _⟩ => show 0 = if (1 : Nat) = 1 then 0 else q.val; rw [if_pos rfl]
      | ⟨2, _⟩ => show k.val = if (512 : Nat) = 1 then 0 else k.val; rw [if_neg (by decide)]),
    broadcastTo_apply _ hb2 (ix3 p q k) (ix3 (0 : Fin 1) q k) (fun ax => by
      match ax with
      | ⟨0, _⟩ => show 0 = if (1 : Nat) = 1 then 0 else p.val; rw [if_pos rfl]
      | ⟨1, _⟩ => show q.val = if (128 : Nat) = 1 then 0 else q.val; rw [if_neg (by decide)]
      | ⟨2, _⟩ => show k.val = if (512 : Nat) = 1 then 0 else k.val; rw [if_neg (by decide)])]
  rw [shapeCast_apply u h1 (ix3 p (0 : Fin 1) k) (ix2 p k) (by
      rw [Shape.rowMajor_val_three, Shape.rowMajor_val_two]
      show p.val * 512 + k.val = (p.val * 1 + 0) * 512 + k.val
      omega),
    shapeCast_apply v h2 (ix3 (0 : Fin 1) q k) (ix2 q k) (by
      rw [Shape.rowMajor_val_three, Shape.rowMajor_val_two]
      show q.val * 512 + k.val = (0 * 128 + q.val) * 512 + k.val
      omega)]

/-- The matrix product's left operand is read at the output's row, -/
theorem mm_lhs_0 (i : S8192x512.Idx) (q : dot_S8192x512_S512x512_S8192x512_1_0_0_1_n_n.contr.Idx) :
    (dot_S8192x512_S512x512_S8192x512_1_0_0_1_n_n.lhsIdx i q 0).val = (i 0).val := by
  unfold DotDims.lhsIdx
  rw [dif_neg (show ¬(0 : Fin S8192x512.rank) ∈ dot_S8192x512_S512x512_S8192x512_1_0_0_1_n_n.lhsBatch by decide),
    dif_pos (show (0 : Fin S8192x512.rank) ∈ dot_S8192x512_S512x512_S8192x512_1_0_0_1_n_n.lhsNonContracting by decide)]
  rfl
/-- and its right operand at the output's column. -/
theorem mm_rhs_1 (i : S8192x512.Idx) (q : dot_S8192x512_S512x512_S8192x512_1_0_0_1_n_n.contr.Idx) :
    (dot_S8192x512_S512x512_S8192x512_1_0_0_1_n_n.rhsIdx i q 1).val = (i 1).val := by
  unfold DotDims.rhsIdx
  rw [dif_neg (show ¬(1 : Fin S512x512.rank) ∈ dot_S8192x512_S512x512_S8192x512_1_0_0_1_n_n.rhsBatch by decide),
    dif_pos (show (1 : Fin S512x512.rank) ∈ dot_S8192x512_S512x512_S8192x512_1_0_0_1_n_n.rhsNonContracting by decide)]
  rfl

/-- A row of the tile times the weight matrix: the plain sum over the contracted coordinate. -/
theorem tileMatmul_apply (lhs : FVec Ideal S8192x512 .bf16) (rhs : FVec Ideal S512x512 .bf16) (r : Fin 8192) (n : Fin 512) :
    matmul dot_S8192x512_S512x512_S8192x512_1_0_0_1_n_n none lhs rhs (constant S8192x512 .f32 0x00000000#32) (ix2 r n)
      = ∑ k : Fin 512, lhs (ix2 r k) * rhs (ix2 k n) := by
  simp only [matmul]
  rw [Ideal.matmul_constant_zero_apply,
    ← Equiv.sum_comp (contrEquiv1 dot_S8192x512_S512x512_S8192x512_1_0_0_1_n_n 512 rfl rfl).symm]
  refine Finset.sum_congr rfl fun k _ => ?_
  have hk := contrEquiv1_symm_val dot_S8192x512_S512x512_S8192x512_1_0_0_1_n_n 512 rfl rfl k
  have el : dot_S8192x512_S512x512_S8192x512_1_0_0_1_n_n.lhsIdx (ix2 r n)
      ((contrEquiv1 dot_S8192x512_S512x512_S8192x512_1_0_0_1_n_n 512 rfl rfl).symm k) = ix2 r k :=
    funext fun a => Fin.ext (by
      match a with
      | ⟨0, _⟩ => exact mm_lhs_0 _ _
      | ⟨1, _⟩ => exact (dot_S8192x512_S512x512_S8192x512_1_0_0_1_n_n.lhsIdx_val_of_single rfl _ _).trans hk)
  have er : dot_S8192x512_S512x512_S8192x512_1_0_0_1_n_n.rhsIdx (ix2 r n)
      ((contrEquiv1 dot_S8192x512_S512x512_S8192x512_1_0_0_1_n_n 512 rfl rfl).symm k) = ix2 k n :=
    funext fun a => Fin.ext (by
      match a with
      | ⟨0, _⟩ => exact (dot_S8192x512_S512x512_S8192x512_1_0_0_1_n_n.rhsIdx_val_of_single rfl _ _).trans hk
      | ⟨1, _⟩ => exact mm_rhs_1 _ _)
  rw [el, er]

/-- The sum along the lanes of row `r`. -/
theorem laneSum_apply (w : FVec Ideal S8192x512 .f32) (h : S8192x512.Reduces [1] S8192) (hφ : FKind.Formats .f32)
    (hacc : (0x00000000#32 : BitVec 32) = FKind.add.neutral .f32 hφ) (r : Fin 8192) :
    multiReduction .add [1] S8192 w 0x00000000#32 h hφ hacc (ix1 r) = ∑ n : Fin 512, w (ix2 r n) := by
  refine (Ideal.multiReduction_add_single w 0x00000000#32 h hφ hacc (ix1 r)).trans ?_
  exact Finset.sum_congr rfl fun n _ => congrArg w (funext fun d => Fin.ext (by
    match d with
    | ⟨0, _⟩ => rfl
    | ⟨1, _⟩ => rfl))

/-- A row vector stored `[1, 512]` broadcast over the 8192 rows. -/
theorem rowBcast_apply (v : FVec Ideal S1x512 .f32) (h : S1x512.Broadcasts S8192x512) (r : Fin 8192) (n : Fin 512) :
    broadcastTo S8192x512 v h (ix2 r n) = v (ix2 (0 : Fin 1) n) :=
  broadcastTo_1b_ab_apply v h r n

/-- The 8192 sums viewed as a column. -/
theorem column_apply {α : Type} (v : S8192.Idx → α) (h : S8192.ShapeCasts S8192x1) (r : Fin 8192) :
    shapeCast S8192x1 v h (ix2 r (0 : Fin 1)) = v (ix1 r) :=
  shapeCast_apply v h _ _ (by
    rw [Shape.rowMajor_val_one, Shape.rowMajor_val_two]
    show r.val = r.val * 1 + 0
    omega)

/-- The one-entry bias broadcast down the column. -/
theorem unitBcast_apply {α : Type} (v : S1x1.Idx → α) (h : S1x1.Broadcasts S8192x1) (r : Fin 8192) :
    broadcastTo S8192x1 v h (ix2 r (0 : Fin 1)) = v (ix2 (0 : Fin 1) (0 : Fin 1)) :=
  broadcastTo_apply v h _ _ (fun ax => by
    match ax with
    | ⟨0, _⟩ => show 0 = if (1 : Nat) = 1 then 0 else r.val; rw [if_pos rfl]
    | ⟨1, _⟩ => show 0 = if (1 : Nat) = 1 then 0 else 0; rw [if_pos rfl])

/-- The column viewed as the [64, 128] block: entry `(p, q)` is row `p · 128 + q`. -/
theorem block_apply {α : Type} (v : S8192x1.Idx → α) (h : S8192x1.ShapeCasts S64x128) (p : Fin 64) (q : Fin 128) :
    shapeCast S64x128 v h (ix2 p q) = v (ix2 (tileRow p q) (0 : Fin 1)) :=
  shapeCast_apply v h _ _ (by
    rw [Shape.rowMajor_val_two, Shape.rowMajor_val_two]
    show (p.val * 128 + q.val) * 1 + 0 = p.val * 128 + q.val
    omega)

end Cert.PairMlp.Body

end
-- ==== Proof.BodyValue.lean ====
/-
  The kernel body's payload at entry `(p, q)` of its block is the score built from row `p` of the first block and row `q`
  of the second: the layout operations are read at the entry, the lane sum and the matrix product become plain sums, and
  what remains is the specification's expression term by term.
-/
import proofs.«130230_j31207232372863_2_alg».proof.Proof.Payload

noncomputable section

namespace Cert.PairMlp.Body

open Cert.KernelIdeal Cert.KernelIdeal.Gen Idealize.ShloMosaic Idealize.ShloMosaic.ValueIdx Cert.PairMlp

/-- THE PAYLOAD AT AN ENTRY. -/
theorem pay_apply (x0 : FVec Ideal S64x512 .bf16) (x1 : FVec Ideal S128x512 .bf16) (x2 : FVec Ideal S512x512 .bf16)
    (x3 x4 : FVec Ideal S1x512 .f32) (x5 : FVec Ideal S1x1 .f32) (p : Fin 64) (q : Fin 128) :
    k0_pay1 (F := Ideal) x0 x1 x2 x3 x4 x5 (ix2 p q)
      = scoreOf (fun k => x0 (ix2 p k)) (fun k => x1 (ix2 q k)) (fun k n => x2 (ix2 k n))
          (fun n => x3 (ix2 (0 : Fin 1) n)) (fun n => x4 (ix2 (0 : Fin 1) n)) (x5 (ix2 (0 : Fin 1) (0 : Fin 1))) := by
  unfold k0_pay1
  simp only [shapeCast_self]
  rw [block_apply, addf_apply, column_apply, unitBcast_apply]
  refine (congrArg (· + x5 (ix2 (0 : Fin 1) (0 : Fin 1))) (laneSum_apply _ _ _ _ (tileRow p q))).trans ?_
  unfold scoreOf hidden2
  refine congrArg (· + x5 (ix2 (0 : Fin 1) (0 : Fin 1))) (Finset.sum_congr rfl fun n _ => ?_)
  rw [mulf_apply, rowBcast_apply, maximumf_apply, broadcast_apply, addf_apply, rowBcast_apply, tileMatmul_apply, zero_f32]
  refine congrArg (fun s => max (s + x3 (ix2 (0 : Fin 1) n)) 0 * x4 (ix2 (0 : Fin 1) n)) (Finset.sum_congr rfl fun k _ => ?_)
  rw [pairTile_apply, zero_bf16]

/-- AN ENTRY OF THE BLOCK IS AN ENTRY OF THE RESULT: if, at entry `j` of the block, row `j 0` of the first operand is
    the `x` half at row `i 0`, row `j 1` of the second is the `y` half at row `i 1`, and the other four operands are
    the weights and biases, then the payload at `j` is the specification at `i`. -/
theorem block_entry (x0 : FVec Ideal S64x512 .bf16) (x1 : FVec Ideal S128x512 .bf16) (x2 : FVec Ideal S512x512 .bf16)
    (x3 x4 : FVec Ideal S1x512 .f32) (x5 : FVec Ideal S1x1 .f32)
    (X Y : Mat 512 128) (W1 : Mat 256 512) (B1 : Row 512) (W2 : Mat 512 512) (B2 : Row 512) (W3 : Mat 512 1) (B3 : Row 1)
    (j : S64x128.Idx) (i : S512x512.Idx)
    (h0 : ∀ k : Fin 512, x0 (ix2 (j 0) k) = projX X W1 B1 (i 0) k)
    (h1 : ∀ k : Fin 512, x1 (ix2 (j 1) k) = projY Y W1 (i 1) k)
    (h2 : ∀ k n : Fin 512, x2 (ix2 k n) = W2 (ix2 k n))
    (h3 : ∀ n : Fin 512, x3 (ix2 (0 : Fin 1) n) = B2 (ix1 n))
    (h4 : ∀ n : Fin 512, x4 (ix2 (0 : Fin 1) n) = W3 (ix2 n (0 : Fin 1)))
    (h5 : x5 (ix2 (0 : Fin 1) (0 : Fin 1)) = B3 (ix1 (0 : Fin 1))) :
    k0_pay1 (F := Ideal) x0 x1 x2 x3 x4 x5 j = scores X Y W1 B1 W2 B2 W3 B3 i := by
  refine (congrArg (k0_pay1 (F := Ideal) x0 x1 x2 x3 x4 x5) (eq_ix2 j)).trans
    ((pay_apply x0 x1 x2 x3 x4 x5 (j 0) (j 1)).trans ?_)
  unfold scores
  simp only [h0, h1, h2, h3, h4, h5]

end Cert.PairMlp.Body

end
-- ==== Proof.HostStage.lean ====
/-
  What the kernel's windows stage: the arrays the host operations leave before the call.

  Before the call the host computes, once, the two halves of the first layer's pre-activation: the product of `x` with
  rows 0‥127 of the first weight matrix plus the bias, and the product of `y` with rows 128‥255. The other four operands
  are the second weight matrix (a change of float format, the identity on extended reals) and the second bias, the third
  weights and the third bias re-laid as rows. Each is read here at an index.
-/
import proofs.«130230_j31207232372863_2_alg».proof.Proof.Gen.KernelIdeal.Frame
import proofs.«130230_j31207232372863_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.PairMlp.Staged

open Cert.KernelIdeal Cert.KernelIdeal.Gen Idealize.ShloMosaic Idealize.ShloMosaic.TcCoe Idealize.SL.Sem
open Idealize.ShloMosaic.ValueIdx Cert.PairMlp Idealize.ShloMosaic.StableHlo

/-- The host's product of a [512, 128] matrix with a 128-row slice of the first weight matrix, read at an index: the left
    operand at the output's row, -/
theorem hd_lhs_0 (i : S512x512.Idx) (q : dot_S512x128_S128x512_S512x512_1_0_0_1_n_n.contr.Idx) :
    (dot_S512x128_S128x512_S512x512_1_0_0_1_n_n.lhsIdx i q 0).val = (i 0).val := by
  unfold DotDims.lhsIdx
  rw [dif_neg (show ¬(0 : Fin S512x128.rank) ∈ dot_S512x128_S128x512_S512x512_1_0_0_1_n_n.lhsBatch by decide),
    dif_pos (show (0 : Fin S512x128.rank) ∈ dot_S512x128_S128x512_S512x512_1_0_0_1_n_n.lhsNonContracting by decide)]
  rfl
/-- the right operand at the output's column. -/
theorem hd_rhs_1 (i : S512x512.Idx) (q : dot_S512x128_S128x512_S512x512_1_0_0_1_n_n.contr.Idx) :
    (dot_S512x128_S128x512_S512x512_1_0_0_1_n_n.rhsIdx i q 1).val = (i 1).val := by
  unfold DotDims.rhsIdx
  rw [dif_neg (show ¬(1 : Fin S128x512.rank) ∈ dot_S512x128_S128x512_S512x512_1_0_0_1_n_n.rhsBatch by decide),
    dif_pos (show (1 : Fin S128x512.rank) ∈ dot_S512x128_S128x512_S512x512_1_0_0_1_n_n.rhsNonContracting by decide)]
  rfl

/-- The host's product at an index: the plain sum over the 128 contracted coordinates. -/
theorem hostDot_apply (l : FVec Ideal S512x128 .f32) (r : FVec Ideal S128x512 .f32) (a k : Fin 512) :
    Host.dotGeneral (F := Ideal) dot_S512x128_S128x512_S512x512_1_0_0_1_n_n (some .fp32) l r (ix2 a k)
      = ∑ j : Fin 128, l (ix2 a j) * r (ix2 j k) := by
  simp only [Host.dotGeneral]
  rw [Ideal.dotGeneral_apply, ← Equiv.sum_comp (contrEquiv1 dot_S512x128_S128x512_S512x512_1_0_0_1_n_n 128 rfl rfl).symm]
  refine Finset.sum_congr rfl fun j _ => ?_
  have hj := contrEquiv1_symm_val dot_S512x128_S128x512_S512x512_1_0_0_1_n_n 128 rfl rfl j
  have el : dot_S512x128_S128x512_S512x512_1_0_0_1_n_n.lhsIdx (ix2 a k)
      ((contrEquiv1 dot_S512x128_S128x512_S512x512_1_0_0_1_n_n 128 rfl rfl).symm j) = ix2 a j :=
    funext fun d => Fin.ext (by
      match d with
      | ⟨0, _⟩ => exact hd_lhs_0 _ _
      | ⟨1, _⟩ => exact (dot_S512x128_S128x512_S512x512_1_0_0_1_n_n.lhsIdx_val_of_single rfl _ _).trans hj)
  have er : dot_S512x128_S128x512_S512x512_1_0_0_1_n_n.rhsIdx (ix2 a k)
      ((contrEquiv1 dot_S512x128_S128x512_S512x512_1_0_0_1_n_n 128 rfl rfl).symm j) = ix2 j k :=
    funext fun d => Fin.ext (by
      match d with
      | ⟨0, _⟩ => exact (dot_S512x128_S128x512_S512x512_1_0_0_1_n_n.rhsIdx_val_of_single rfl _ _).trans hj
      | ⟨1, _⟩ => exact hd_rhs_1 _ _)
  rw [el, er]

/-- Rows 0‥127 of the first weight matrix. -/
theorem upper_apply (W1 : FVec Ideal S256x512 .f32) (h : S256x512.Slices ![0, 0] S128x512) (j : Fin 128) (k : Fin 512) :
    extractStridedSlice S128x512 ![0, 0] W1 h (ix2 j k) = W1 (ix2 (lo j) k) :=
  extractStridedSlice_apply _ W1 h _ _ (fun d => by
    match d with
    | ⟨0, _⟩ => show j.val = 0 + j.val; omega
    | ⟨1, _⟩ => show k.val = 0 + k.val; omega)

/-- Rows 128‥255 of the first weight matrix. -/
theorem lower_apply (W1 : FVec Ideal S256x512 .f32) (h : S256x512.Slices ![128, 0] S128x512) (j : Fin 128) (k : Fin 512) :
    extractStridedSlice S128x512 ![128, 0] W1 h (ix2 j k) = W1 (ix2 (hi j) k) :=
  extractStridedSlice_apply _ W1 h _ _ (fun d => by
    match d with
    | ⟨0, _⟩ => show 128 + j.val = 128 + j.val; rfl
    | ⟨1, _⟩ => show k.val = 0 + k.val; omega)

/-- The bias as a row broadcast over the 512 rows. -/
theorem biasRows_apply (b1 : FVec Ideal S512 .f32) (h1 : S512.BroadcastsInDim S1x512 (![1] : Fin 1 → Fin S1x512.rank))
    (h2 : S1x512.BroadcastsInDim S512x512 (![0, 1] : Fin 2 → Fin S512x512.rank)) (a k : Fin 512) :
    broadcastInDim S512x512 ![0, 1] h2 (broadcastInDim S1x512 ![1] h1 b1) (ix2 a k) = b1 (ix1 k) := by
  rw [broadcastInDim_apply _ h2 _ (ix2 a k) (ix2 (0 : Fin 1) k) (fun d => by
      match d with
      | ⟨0, _⟩ => show 0 = if (1 : Nat) = 1 then 0 else a.val; rw [if_pos rfl]
      | ⟨1, _⟩ => show k.val = if (512 : Nat) = 1 then 0 else k.val; rw [if_neg (by decide)]),
    broadcastInDim_apply _ h1 _ (ix2 (0 : Fin 1) k) (ix1 k) (fun d => by
      match d with
      | ⟨0, _⟩ => show k.val = if (512 : Nat) = 1 then 0 else k.val; rw [if_neg (by decide)])]

variable (m : (ℓ : Loc nD τ sig) → Buf (Elt Ideal) ℓ)

/-- The eight argument arrays as launched, typed by their literal shapes. -/
abbrev argX (c : Dev nD) : Mat 512 128 := m ((c : Thread nD τ).loc main_arg0)
abbrev argY (c : Dev nD) : Mat 512 128 := m ((c : Thread nD τ).loc main_arg1)
abbrev argW1 (c : Dev nD) : Mat 256 512 := m ((c : Thread nD τ).loc main_arg2)
abbrev argB1 (c : Dev nD) : Row 512 := m ((c : Thread nD τ).loc main_arg3)
abbrev argW2 (c : Dev nD) : Mat 512 512 := m ((c : Thread nD τ).loc main_arg4)
abbrev argB2 (c : Dev nD) : Row 512 := m ((c : Thread nD τ).loc main_arg5)
abbrev argW3 (c : Dev nD) : Mat 512 1 := m ((c : Thread nD τ).loc main_arg6)
abbrev argB3 (c : Dev nD) : Row 1 := m ((c : Thread nD τ).loc main_arg7)

/-- Window 0's array: the `x` half of the first layer, bias included. -/
theorem px_apply (c : Dev nD) (a k : Fin 512) :
    V m c main_v7 (ix2 a k) = projX (argX m c) (argW1 m c) (argB1 m c) a k := by
  have e : (V m c main_v7 : S512x512.Idx → EReal)
      = truncf (φ := .f32) .bf16 (addf (Host.dotGeneral (F := Ideal) (φ₁ := .f32) (φ₂ := .f32) dot_S512x128_S128x512_S512x512_1_0_0_1_n_n (some .fp32)
          (argX m c) (extractStridedSlice S128x512 ![0, 0] (argW1 m c) slices_S256x512_S128x512_0_0))
        (broadcastInDim S512x512 ![0, 1] bcast_S1x512_S512x512_0_1
          (broadcastInDim S1x512 ![1] bcast_S512_S1x512_1 (argB1 m c)))) bitsLt_bf16_f32 := by
    dsimp only [Gen.V, Gen.hostOps0]; after_results <;> rfl
  rw [e, truncf_apply, addf_apply, hostDot_apply, biasRows_apply]
  unfold projX
  simp only [upper_apply]

/-- Window 1's array: the `y` half of the first layer. -/
theorem py_apply (c : Dev nD) (b k : Fin 512) :
    V m c main_v8 (ix2 b k) = projY (argY m c) (argW1 m c) b k := by
  have e : (V m c main_v8 : S512x512.Idx → EReal)
      = truncf (φ := .f32) .bf16 (Host.dotGeneral (F := Ideal) (φ₁ := .f32) (φ₂ := .f32) dot_S512x128_S128x512_S512x512_1_0_0_1_n_n (some .fp32)
          (argY m c) (extractStridedSlice S128x512 ![128, 0] (argW1 m c) slices_S256x512_S128x512_128_0))
        bitsLt_bf16_f32 := by
    dsimp only [Gen.V, Gen.hostOps0]; after_results <;> rfl
  rw [e, truncf_apply, hostDot_apply]
  unfold projY
  simp only [lower_apply]

/-- Window 2's array: the second weight matrix. -/
theorem w2_apply (c : Dev nD) (k n : Fin 512) :
    V m c main_v9 (ix2 k n) = argW2 m c (ix2 k n) := by
  have e : (V m c main_v9 : S512x512.Idx → EReal)
      = truncf (φ := .f32) .bf16 (argW2 m c) bitsLt_bf16_f32 := by
    dsimp only [Gen.V, Gen.hostOps0]; after_results <;> rfl
  rw [e, truncf_apply]

/-- Window 3's array: the second bias as a row. -/
theorem b2_apply (c : Dev nD) (n : Fin 512) :
    V m c main_v10 (ix2 (0 : Fin 1) n) = argB2 m c (ix1 n) := by
  have e : (V m c main_v10 : S1x512.Idx → EReal)
      = shapeCast S1x512 (argB2 m c) shapeCasts_S512_S1x512 := by
    dsimp only [Gen.V, Gen.hostOps0]; after_results <;> rfl
  rw [e]
  exact shapeCast_apply (s := S512) (argB2 m c) shapeCasts_S512_S1x512 (ix2 (0 : Fin 1) n) (ix1 n) (by
    rw [Shape.rowMajor_val_one, Shape.rowMajor_val_two]
    show n.val = 0 * 512 + n.val
    omega)

/-- Window 4's array: the third weights, a [512, 1] column, as a row. -/
theorem w3_apply (c : Dev nD) (n : Fin 512) :
    V m c main_v11 (ix2 (0 : Fin 1) n) = argW3 m c (ix2 n (0 : Fin 1)) := by
  have e : (V m c main_v11 : S1x512.Idx → EReal)
      = shapeCast S1x512 (argW3 m c) shapeCasts_S512x1_S1x512 := by
    dsimp only [Gen.V, Gen.hostOps0]; after_results <;> rfl
  rw [e]
  exact shapeCast_apply (s := S512x1) (argW3 m c) shapeCasts_S512x1_S1x512 (ix2 (0 : Fin 1) n) (ix2 n (0 : Fin 1)) (by
    rw [Shape.rowMajor_val_two, Shape.rowMajor_val_two]
    show n.val * 1 + 0 = 0 * 512 + n.val
    omega)

/-- Window 5's array: the third bias as a [1, 1] matrix. -/
theorem b3_apply (c : Dev nD) :
    V m c main_v12 (ix2 (0 : Fin 1) (0 : Fin 1)) = argB3 m c (ix1 (0 : Fin 1)) := by
  have e : (V m c main_v12 : S1x1.Idx → EReal)
      = shapeCast S1x1 (argB3 m c) shapeCasts_S1_S1x1 := by
    dsimp only [Gen.V, Gen.hostOps0]; after_results <;> rfl
  rw [e]
  exact shapeCast_apply (s := S1) (argB3 m c) shapeCasts_S1_S1x1 (ix2 (0 : Fin 1) (0 : Fin 1)) (ix1 (0 : Fin 1)) (by
    rw [Shape.rowMajor_val_one, Shape.rowMajor_val_two]
    show 0 = 0 * 1 + 0
    rfl)

end Cert.PairMlp.Staged

end
-- ==== Proof.Blocks.lean ====
/-
  From blocks to the array.

  The grid has 8 × 4 points; point `(g, h)` stages rows `64 g ‥ 64 g + 63` of the `x` half, rows `128 h ‥ 128 h + 127` of
  the `y` half, all of the other four operands, and writes back the [64, 128] block of the result at block index
  `(g, h)`. So what a point writes back is its block of the one whole-array function of the specification, the 32 blocks
  tile the [512, 512] result, and the array after the run is the specification.
-/
import proofs.«130230_j31207232372863_2_alg».proof.Proof.Gen.KernelIdeal.Value
import proofs.«130230_j31207232372863_2_alg».proof.Proof.BodyValue
import proofs.«130230_j31207232372863_2_alg».proof.Proof.HostStage

noncomputable section

namespace Cert.PairMlp.Blocks

open Cert.KernelIdeal Cert.KernelIdeal.Gen Idealize.ShloMosaic Idealize.ShloMosaic.TcCoe Idealize.SL.Sem
open Idealize.ShloMosaic.ValueIdx Cert.PairMlp Cert.PairMlp.Staged Cert.PairMlp.Body
open Idealize.ShloMosaic.Pipeline (Dat)

variable (m : (ℓ : Loc nD τ sig) → Buf (Elt Ideal) ℓ) (ρ : Dev nD → PrngReg)

/-- Every access of the body starts at the origin of its buffer. -/
theorem origin : (![0, 0] : Fin 2 → Nat) = fun _ => 0 := funext fun a => by fin_cases a <;> rfl

/-- The result as one function of the argument arrays as launched. -/
abbrev result (c : Dev nD) : Mat 512 512 :=
  scores (argX m c) (argY m c) (argW1 m c) (argB1 m c) (argW2 m c) (argB2 m c) (argW3 m c) (argB3 m c)

/-- The printed index maps, decided over the 32 points: the `x` half moves with the output's row block, the `y` half with
    its column block, the other operands stay, and the output's block indices range over 8 × 4. -/
theorem index_facts : ∀ t : Fin cfg0.N,
    win0_0.index t (0 : Fin 2) = win0_6.index t (0 : Fin 2) ∧ win0_0.index t (1 : Fin 2) = 0
    ∧ win0_1.index t (0 : Fin 2) = win0_6.index t (1 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) ≤ 7 ∧ win0_6.index t (1 : Fin 2) ≤ 3 :=
  (by decide +kernel : ∀ t : Fin grid0.N, _)

/-- Every block of the 8 × 4 tiling is some point's. -/
theorem index_onto : ∀ (g : Fin 8) (h : Fin 4), ∃ t : Fin cfg0.N, win0_6.index t = ![g.val, h.val] :=
  (by decide +kernel : ∀ (g : Fin 8) (h : Fin 4), ∃ t : Fin grid0.N, win0_6.index t = ![g.val, h.val])

/-- WHAT POINT `t` WRITES BACK is block `t` of the specification. -/
theorem flushed_eq (c : Dev nD) (t : Fin cfg0.N) :
    (dats m 0 c).flushed 6 t = ((cfg0.win 6).blk t).view.read (Elt Ideal) (result m c) := by
  rw [Value.flushed6]
  unfold out0_6
  rw [View.canon_unit_zero origin]
  simp only [View.ld_unit_zero (S := S64x512) origin, View.ld_unit_zero (S := S128x512) origin,
    View.ld_unit_zero (S := S512x512) origin, View.ld_unit_zero (S := S1x512) origin, View.ld_unit_zero (S := S1x1) origin]
  obtain ⟨e00, e01, e10, e11, e20, e21, e30, e31, e40, e41, e50, e51, -, -⟩ := index_facts t
  funext j
  show k0_pay1 (F := Ideal) (iblk m c 0 t) (iblk m c 1 t) (iblk m c 2 t) (iblk m c 3 t) (iblk m c 4 t) (iblk m c 5 t) j
    = result m c (((cfg0.win 6).blk t).view.emb j)
  refine block_entry (iblk m c 0 t) (iblk m c 1 t) (iblk m c 2 t) (iblk m c 3 t) (iblk m c 4 t) (iblk m c 5 t)
    (argX m c) (argY m c) (argW1 m c) (argB1 m c) (argW2 m c) (argB2 m c) (argW3 m c) (argB3 m c)
    j (((cfg0.win 6).blk t).view.emb j) ?_ ?_ ?_ ?_ ?_ ?_
  · intro k
    show V m c main_v7 (((cfg0.win 0).blk t).view.emb (ix2 (j 0) k)) = _
    have hi : ((cfg0.win 0).blk t).view.emb (ix2 (j 0) k) = ix2 ((((cfg0.win 6).blk t).view.emb j) 0) k := by
      funext a; apply Fin.ext
      match a with
      | ⟨0, _⟩ => show win0_0.index t (0 : Fin 2) * 64 + 1 * (j 0).val = win0_6.index t (0 : Fin 2) * 64 + 1 * (j 0).val; rw [e00]
      | ⟨1, _⟩ => show win0_0.index t (1 : Fin 2) * 512 + 1 * k.val = k.val; rw [e01]; omega
    rw [hi]
    exact px_apply m c _ k
  · intro k
    show V m c main_v8 (((cfg0.win 1).blk t).view.emb (ix2 (j 1) k)) = _
    have hi : ((cfg0.win 1).blk t).view.emb (ix2 (j 1) k) = ix2 ((((cfg0.win 6).blk t).view.emb j) 1) k := by
      funext a; apply Fin.ext
      match a with
      | ⟨0, _⟩ => show win0_1.index t (0 : Fin 2) * 128 + 1 * (j 1).val = win0_6.index t (1 : Fin 2) * 128 + 1 * (j 1).val; rw [e10]
      | ⟨1, _⟩ => show win0_1.index t (1 : Fin 2) * 512 + 1 * k.val = k.val; rw [e11]; omega
    rw [hi]
    exact py_apply m c _ k
  · intro k n
    show V m c main_v9 (((cfg0.win 2).blk t).view.emb (ix2 k n)) = _
    have hi : ((cfg0.win 2).blk t).view.emb (ix2 k n) = ix2 k n := by
      funext a; apply Fin.ext
      match a with
      | ⟨0, _⟩ => show win0_2.index t (0 : Fin 2) * 512 + 1 * k.val = k.val; rw [e20]; omega
      | ⟨1, _⟩ => show win0_2.index t (1 : Fin 2) * 512 + 1 * n.val = n.val; rw [e21]; omega
    rw [hi]
    exact w2_apply m c k n
  · intro n
    show V m c main_v10 (((cfg0.win 3).blk t).view.emb (ix2 (0 : Fin 1) n)) = _
    have hi : ((cfg0.win 3).blk t).view.emb (ix2 (0 : Fin 1) n) = ix2 (0 : Fin 1) n := by
      funext a; apply Fin.ext
      match a with
      | ⟨0, _⟩ => show win0_3.index t (0 : Fin 2) * 1 + 1 * 0 = 0; rw [e30]
      | ⟨1, _⟩ => show win0_3.index t (1 : Fin 2) * 512 + 1 * n.val = n.val; rw [e31]; omega
    rw [hi]
    exact b2_apply m c n
  · intro n
    show V m c main_v11 (((cfg0.win 4).blk t).view.emb (ix2 (0 : Fin 1) n)) = _
    have hi : ((cfg0.win 4).blk t).view.emb (ix2 (0 : Fin 1) n) = ix2 (0 : Fin 1) n := by
      funext a; apply Fin.ext
      match a with
      | ⟨0, _⟩ => show win0_4.index t (0 : Fin 2) * 1 + 1 * 0 = 0; rw [e40]
      | ⟨1, _⟩ => show win0_4.index t (1 : Fin 2) * 512 + 1 * n.val = n.val; rw [e41]; omega
    rw [hi]
    exact w3_apply m c n
  · show V m c main_v12 (((cfg0.win 5).blk t).view.emb (ix2 (0 : Fin 1) (0 : Fin 1))) = _
    have hi : ((cfg0.win 5).blk t).view.emb (ix2 (0 : Fin 1) (0 : Fin 1)) = ix2 (0 : Fin 1) (0 : Fin 1) := by
      funext a; apply Fin.ext
      match a with
      | ⟨0, _⟩ => show win0_5.index t (0 : Fin 2) * 1 + 1 * 0 = 0; rw [e50]
      | ⟨1, _⟩ => show win0_5.index t (1 : Fin 2) * 1 + 1 * 0 = 0; rw [e51]
    rw [hi]
    exact b3_apply m c

/-- An index of the result is in point `t`'s block iff each coordinate is in the block's range on its axis. -/
theorem mem_block (t : Fin cfg0.N) (i : S512x512.Idx) :
    i ∈ ((cfg0.win 6).blk t).view.set ↔ ∀ a : Fin 2, win0_6.index t a * S64x128.size a ≤ (i a).val ∧ (i a).val < win0_6.index t a * S64x128.size a + S64x128.size a := by
  show i ∈ ((View.whole main_v13).slice (win0_6.rect t)).set ↔ _
  rw [View.set_slice_whole, Rect.mem_set_unit]
  exact Iff.rfl

/-- THE 32 BLOCKS TILE THE RESULT: entry `(r, s)` is in the block of the point with block index `(r / 64, s / 128)`. -/
theorem covered (i : S512x512.Idx) :
    ∃ t : Fin cfg0.N, (cfg0.win 6).flush t = true ∧ i ∈ ((cfg0.win 6).blk t).view.set := by
  have hi0 : (i 0).val < 512 := (i 0).isLt
  have hi1 : (i 1).val < 512 := (i 1).isLt
  obtain ⟨t, ht⟩ := index_onto ⟨(i 0).val / 64, by omega⟩ ⟨(i 1).val / 128, by omega⟩
  have q0 : win0_6.index t (0 : Fin 2) = (i 0).val / 64 := congrFun ht 0
  have q1 : win0_6.index t (1 : Fin 2) = (i 1).val / 128 := congrFun ht 1
  refine ⟨t, flush0_6 t, ?_⟩
  rw [mem_block]
  intro a
  match a with
  | ⟨0, _⟩ => show win0_6.index t (0 : Fin 2) * 64 ≤ (i 0).val ∧ (i 0).val < win0_6.index t (0 : Fin 2) * 64 + 64; omega
  | ⟨1, _⟩ => show win0_6.index t (1 : Fin 2) * 128 ≤ (i 1).val ∧ (i 1).val < win0_6.index t (1 : Fin 2) * 128 + 128; omega

/-- THE ARRAY AFTER THE RUN is the specification of the arguments as launched. -/
theorem final (c : Dev nD) : (dats m 0 c).arrAt 6 cfg0.N = result m c :=
  (dats m 0 c).arrAt_eq_of_cover 6 (result m c) (fun t _ => flushed_eq m c t) covered

/-- The kernel's run, read: the result array ends at the specification, the arguments unchanged. -/
theorem run : θ_run defs (onTc (τ := τ) (main (F := Ideal))) ⟨m, fun _ => 0, ρ⟩ fun r => ∀ c : Dev nD,
      r.2.mem ((c : Thread nD τ).loc main_v13) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.PairMlp.Blocks

end
-- ==== Proof.RefIsSpec.lean ====
/-
  The reference, read at an index, is the specification.

  The reference lists all pairs row-major with the `y` index slowest: row `b · 512 + a` of its flattened
  [262144, 256] matrix is the concatenation `(x a, y b)`. It then applies the three layers to every row, views the
  column of scores as a [512, 512] matrix (entry `(b, a)`) and transposes, so entry `(a, b)` of its result is the
  score of `(x a, y b)`. The only algebra is in the first layer: the contraction over the 256 concatenated
  coordinates splits into its two halves, and the bias moves to the first half.
-/
import proofs.«130230_j31207232372863_2_alg».proof.Proof.Gen.ReferenceIdeal.Read
import proofs.«130230_j31207232372863_2_alg».proof.Proof.Spec

noncomputable section

namespace Cert.PairMlp.Ref

open Cert.ReferenceIdeal Cert.ReferenceIdeal.Read Idealize.ShloMosaic Idealize.ShloMosaic.ValueIdx Cert.PairMlp

/-- The row of the flattened list of pairs that holds `(x a, y b)`. -/
def pairRow (a b : Fin 512) : Fin 262144 := ⟨b.val * 512 + a.val, by have := a.isLt; have := b.isLt; omega⟩

variable (x y : Mat 512 128) (W1 : Mat 256 512) (b1 : Row 512) (W2 : Mat 512 512) (b2 : Row 512)
  (W3 : Mat 512 1) (b3 : Row 1)

/-- The broadcast of `x` along a new leading axis reads `x` at the trailing two coordinates. -/
theorem tileX_apply (p a : Fin 512) (j : Fin 128) : val_main_v1 (F := Ideal) x (ix3 p a j) = x (ix2 a j) := by
  rw [val_main_v1_apply, val_main_v0_apply]
  exact congrArg x (funext fun d => Fin.ext (by match d with | ⟨0, _⟩ => rfl | ⟨1, _⟩ => rfl))

/-- The broadcast of `y` along a new middle axis reads `y` at the outer two coordinates. -/
theorem tileY_apply (b p : Fin 512) (j : Fin 128) : val_main_v3 (F := Ideal) y (ix3 b p j) = y (ix2 b j) := by
  rw [val_main_v3_apply, val_main_v2_apply]
  exact congrArg y (funext fun d => Fin.ext (by match d with | ⟨0, _⟩ => rfl | ⟨1, _⟩ => rfl))

/-- The first 128 coordinates of the pair's row are `x a`. -/
theorem pairs_lo (a b : Fin 512) (j : Fin 128) :
    val_main_v5 (F := Ideal) x y (ix2 (pairRow a b) (lo j)) = x (ix2 a j) := by
  rw [val_main_v5_apply]
  unfold val_main_v4
  refine (concatenate_pair_apply_left (t := S512x512x256) (s₁ := S512x512x128) (s₂ := S512x512x128) (2 : Fin 3) (val_main_v1 (F := Ideal) x) (val_main_v3 (F := Ideal) y) _ (idx_main_v5 (ix2 (pairRow a b) (lo j))) rfl (ix3 b a j) (fun d => ?_)).trans (tileX_apply x b a j)
  have ha := a.isLt; have hb := b.isLt; have hj := j.isLt
  match d with
  | ⟨0, _⟩ => show b.val = ((b.val * 512 + a.val) * 256 + j.val) / 131072; omega
  | ⟨1, _⟩ => show a.val = ((b.val * 512 + a.val) * 256 + j.val) / 256 % 512; omega
  | ⟨2, _⟩ => show j.val = ((b.val * 512 + a.val) * 256 + j.val) % 256; omega

/-- The last 128 coordinates of the pair's row are `y b`. -/
theorem pairs_hi (a b : Fin 512) (j : Fin 128) :
    val_main_v5 (F := Ideal) x y (ix2 (pairRow a b) (hi j)) = y (ix2 b j) := by
  rw [val_main_v5_apply]
  unfold val_main_v4
  have ha := a.isLt; have hb := b.isLt; have hj := j.isLt
  refine (concatenate_pair_apply_right (t := S512x512x256) (s₁ := S512x512x128) (s₂ := S512x512x128) (2 : Fin 3) (val_main_v1 (F := Ideal) x) (val_main_v3 (F := Ideal) y) _ (idx_main_v5 (ix2 (pairRow a b) (hi j))) rfl rfl (ix3 b a j) (fun d hd => ?_) ?_).trans (tileY_apply y b a j)
  · match d with
    | ⟨0, _⟩ => show b.val = ((b.val * 512 + a.val) * 256 + (128 + j.val)) / 131072; omega
    | ⟨1, _⟩ => show a.val = ((b.val * 512 + a.val) * 256 + (128 + j.val)) / 256 % 512; omega
    | ⟨2, _⟩ => exact absurd rfl hd
  · show j.val + 128 = ((b.val * 512 + a.val) * 256 + (128 + j.val)) % 256; omega

/-- The first layer's pre-activation at the pair's row: the contraction over the concatenated row, split into its two
    halves, with the bias on the first. -/
theorem pre1_apply (a b k : Fin 512) :
    val_main_v9 (F := Ideal) x y W1 b1 (ix2 (pairRow a b) k) = projX x W1 b1 a k + projY y W1 b k := by
  rw [val_main_v9_apply, val_main_v6_apply, val_main_v8_apply, val_main_v7_apply, sum_halves]
  have el : ∀ l : Fin 256, lidx_main_v6 (ix2 (pairRow a b) k) l = ix2 (pairRow a b) l := fun l =>
    funext fun d => Fin.ext (by match d with | ⟨0, _⟩ => rfl | ⟨1, _⟩ => rfl)
  have er : ∀ l : Fin 256, ridx_main_v6 (ix2 (pairRow a b) k) l = ix2 l k := fun l =>
    funext fun d => Fin.ext (by match d with | ⟨0, _⟩ => rfl | ⟨1, _⟩ => rfl)
  have eb : idx_main_v7 (idx_main_v8 (ix2 (pairRow a b) k)) = ix1 k :=
    funext fun d => Fin.ext (by match d with | ⟨0, _⟩ => rfl)
  simp only [el, er, eb, pairs_lo, pairs_hi]
  exact split_bias _ _ _

/-- The first layer at the pair's row. -/
theorem act1_apply (a b k : Fin 512) :
    val_main_v10 (F := Ideal) x y W1 b1 (ix2 (pairRow a b) k) = max (projX x W1 b1 a k + projY y W1 b k) 0 := by
  rw [val_main_v10_apply, pre1_apply, val_main_call0_v0_apply, val_main_call0_cst_apply]
  simp only [Ideal.maximumf_def, Ideal.ofBits_def, Ideal.ofBits_zero_f32]

/-- The second layer at the pair's row. -/
theorem act2_apply (a b n : Fin 512) :
    val_main_v15 (F := Ideal) x y W1 b1 W2 b2 (ix2 (pairRow a b) n)
      = hidden2 (projX x W1 b1 a) (projY y W1 b) (fun k n => W2 (ix2 k n)) (fun n => b2 (ix1 n)) n := by
  rw [val_main_v15_apply, val_main_v14_apply, val_main_v11_apply, val_main_v13_apply, val_main_v12_apply,
    val_main_call1_v0_apply, val_main_call1_cst_apply]
  have el : ∀ k : Fin 512, lidx_main_v11 (ix2 (pairRow a b) n) k = ix2 (pairRow a b) k := fun k =>
    funext fun d => Fin.ext (by match d with | ⟨0, _⟩ => rfl | ⟨1, _⟩ => rfl)
  have er : ∀ k : Fin 512, ridx_main_v11 (ix2 (pairRow a b) n) k = ix2 k n := fun k =>
    funext fun d => Fin.ext (by match d with | ⟨0, _⟩ => rfl | ⟨1, _⟩ => rfl)
  have eb : idx_main_v12 (idx_main_v13 (ix2 (pairRow a b) n)) = ix1 n :=
    funext fun d => Fin.ext (by match d with | ⟨0, _⟩ => rfl)
  simp only [el, er, eb, act1_apply, Ideal.maximumf_def, Ideal.addf_def, Ideal.ofBits_def, Ideal.ofBits_zero_f32]
  rfl

/-- The score at the pair's row. -/
theorem score_apply (a b : Fin 512) :
    val_main_v19 (F := Ideal) x y W1 b1 W2 b2 W3 b3 (ix2 (pairRow a b) (0 : Fin 1))
      = scoreOf (projX x W1 b1 a) (projY y W1 b) (fun k n => W2 (ix2 k n)) (fun n => b2 (ix1 n))
          (fun n => W3 (ix2 n (0 : Fin 1))) (b3 (ix1 (0 : Fin 1))) := by
  rw [val_main_v19_apply, val_main_v16_apply, val_main_v18_apply, val_main_v17_apply]
  have el : ∀ k : Fin 512, lidx_main_v16 (ix2 (pairRow a b) (0 : Fin 1)) k = ix2 (pairRow a b) k := fun k =>
    funext fun d => Fin.ext (by match d with | ⟨0, _⟩ => rfl | ⟨1, _⟩ => rfl)
  have er : ∀ k : Fin 512, ridx_main_v16 (ix2 (pairRow a b) (0 : Fin 1)) k = ix2 k (0 : Fin 1) := fun k =>
    funext fun d => Fin.ext (by match d with | ⟨0, _⟩ => rfl | ⟨1, _⟩ => rfl)
  have eb : idx_main_v17 (idx_main_v18 (ix2 (pairRow a b) (0 : Fin 1))) = ix1 (0 : Fin 1) :=
    funext fun d => Fin.ext (by match d with | ⟨0, _⟩ => rfl)
  simp only [el, er, eb, act2_apply, Ideal.addf_def]
  rfl

/-- THE REFERENCE IS THE SPECIFICATION: the column of scores viewed as a matrix and transposed holds, at `(a, b)`, the
    score of the row `b · 512 + a`, which is the pair `(x a, y b)`. -/
theorem ref_eq : val_main_v21 (F := Ideal) x y W1 b1 W2 b2 W3 b3 = scores x y W1 b1 W2 b2 W3 b3 := by
  funext i
  obtain ⟨a, b, rfl⟩ : ∃ (a b : Fin 512), i = ix2 a b := ⟨i 0, i 1, eq_ix2 i⟩
  rw [val_main_v21_apply, val_main_v20_apply]
  have e : idx_main_v20 (idx_main_v21 (ix2 a b)) = ix2 (pairRow a b) (0 : Fin 1) :=
    funext fun d => Fin.ext (by
      match d with
      | ⟨0, _⟩ => show (b.val * 512 + a.val) / 1 = b.val * 512 + a.val; omega
      | ⟨1, _⟩ => rfl)
  rw [e, score_apply]
  rfl

end Cert.PairMlp.Ref

end
-- ==== Proof.lean ====
/-
  The certificate: the kernel computes, for every pair of a row of `x` and a row of `y`, a three-layer perceptron of
  the concatenated row, and so does the reference.

  The kernel never forms the concatenation: its host side computes the two halves of the first layer's
  pre-activation once (`x` against rows 0‥127 of the first weight matrix, plus the bias; `y` against rows 128‥255), and
  its body adds a row of one half to a row of the other, clamps, and applies the remaining two layers to the
  [64, 128] block of pairs it is given. The reference concatenates every pair, applies the three layers to the
  262144 rows, and re-lays the scores as a matrix. On the extended reals both are the function `PairMlp.scores`:
  a contraction over 256 concatenated coordinates is the sum of its two halves, and the bias may be added to
  either; these are laws of a commutative monoid, so the precondition (finite inputs) is never opened.
  The three frames are the generated ones; the ideal pass rewrote nothing, so there is nothing to preserve.
-/
import proofs.«130230_j31207232372863_2_alg».proof.Defs
import proofs.«130230_j31207232372863_2_alg».proof.Proof.Gen.Kernel
import proofs.«130230_j31207232372863_2_alg».proof.Proof.Gen.Kernel.Skeleton
import proofs.«130230_j31207232372863_2_alg».proof.Proof.Gen.Kernel.Launch
import proofs.«130230_j31207232372863_2_alg».proof.Proof.Gen.Kernel.Points
import proofs.«130230_j31207232372863_2_alg».proof.Proof.Gen.Kernel.Frame
import proofs.«130230_j31207232372863_2_alg».proof.Proof.Gen.KernelIdeal
import proofs.«130230_j31207232372863_2_alg».proof.Proof.Gen.KernelIdeal.Skeleton
import proofs.«130230_j31207232372863_2_alg».proof.Proof.Gen.KernelIdeal.Launch
import proofs.«130230_j31207232372863_2_alg».proof.Proof.Gen.KernelIdeal.Points
import proofs.«130230_j31207232372863_2_alg».proof.Proof.Gen.KernelIdeal.Frame
import proofs.«130230_j31207232372863_2_alg».proof.Proof.Gen.ReferenceIdeal
import proofs.«130230_j31207232372863_2_alg».proof.Proof.Gen.Pre_finite_inputs
import proofs.«130230_j31207232372863_2_alg».proof.Proof.Gen.KernelIdeal.Value
import proofs.«130230_j31207232372863_2_alg».proof.Proof.Gen.ReferenceIdeal.Run
import proofs.«130230_j31207232372863_2_alg».proof.Proof.Gen.ReferenceIdeal.Read
import proofs.«130230_j31207232372863_2_alg».proof.Proof.Blocks
import proofs.«130230_j31207232372863_2_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments both programs end with the specification of those arguments in their result
    array: the kernel block by block, the reference index by index. -/
theorem algebraic : Cert.algebraic_KernelIdeal_ReferenceIdeal := by
  intro m ρ m' ρ' _ hagree
  refine ⟨fun c => Cert.PairMlp.Blocks.result m c, Cert.PairMlp.Blocks.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v21_eq, Cert.PairMlp.Ref.ref_eq]
  obtain ⟨h0, h1, h2, h3, h4, h5, h6, h7⟩ := hagree c
  rw [h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
